-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  IdealRules.truncf_extf.Statement Cert.KernelIdeal.S64x65536 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x64x32x64x64 : Shape := ⟨5, ![8, 64, 32, 64, 64]⟩
abbrev S_ : Shape := ⟨0, ![]⟩

class Facts : Prop where
  bcast_S_S8x64x32x64x64 : S_.BroadcastsInDim S8x64x32x64x64 (![] : Fin 0 → Fin S8x64x32x64x64.rank)
  reducesTo_S8x64x32x64x64_S_d0_1_2_3_4 : S8x64x32x64x64.ReducesTo [0, 1, 2, 3, 4] S_
  h_S_ : 0 < S_.numel

variable [Facts]

def fn {F : FTy → Type} [FloatOps F] (main_arg0 : FVec F S8x64x32x64x64 .f32) : IVec S_ 1 :=
  let main_v0 : FVec F S8x64x32x64x64 .f32 := Host.absf main_arg0
  let main_cst : FVec F S_ .f32 := constant S_ .f32 0x7F800000#32
  let main_v1 : FVec F S8x64x32x64x64 .f32 := broadcastInDim S8x64x32x64x64 ![] bcast_S_S8x64x32x64x64 main_cst
  let main_v2 : IVec S8x64x32x64x64 1 := cmpf .olt main_v0 main_v1
  let main_c : IVec S_ 1 := constantI S_ 1 1#1
  let main_v3 : IVec S_ 1 := (fun x v => Host.reduce IntOp.andi x v reducesTo_S8x64x32x64x64_S_d0_1_2_3_4 h_S_) main_v2 main_c
  main_v3
-- ==== Kernel.lean ====
abbrev S8x64x32x64x64 : Shape := ⟨5, ![8, 64, 32, 64, 64]⟩
abbrev S8x64x131072 : Shape := ⟨3, ![8, 64, 131072]⟩
abbrev S8x64x64 : Shape := ⟨3, ![8, 64, 64]⟩
abbrev S1x64x65536 : Shape := ⟨3, ![1, 64, 65536]⟩
abbrev S1x64x64 : Shape := ⟨3, ![1, 64, 64]⟩
abbrev S64x64 : Shape := ⟨2, ![64, 64]⟩
abbrev S64x1 : Shape := ⟨2, ![64, 1]⟩
abbrev S64x65536 : Shape := ⟨2, ![64, 65536]⟩
abbrev S64 : Shape := ⟨1, ![64]⟩
abbrev S1x64 : Shape := ⟨2, ![1, 64]⟩

abbrev nBuf : Space → Nat
  | .hbm => 3
  | .vmem => 6
  | .smem => 0
  | _ => 0

abbrev bufTy : (tb : Table) → Fin (tcTables nBuf tb) → BufTy
  | .hbm, ⟨0, _⟩ => ⟨S8x64x32x64x64, .f32⟩
  | .hbm, ⟨1, _⟩ => ⟨S8x64x131072, .f32⟩
  | .hbm, ⟨2, _⟩ => ⟨S8x64x64, .f32⟩
  | .local _ .vmem, ⟨0, _⟩ => ⟨S1x64x65536, .f32⟩
  | .local _ .vmem, ⟨1, _⟩ => ⟨S1x64x65536, .f32⟩
  | .local _ .vmem, ⟨2, _⟩ => ⟨S1x64x64, .f32⟩
  | .local _ .vmem, ⟨3, _⟩ => ⟨S1x64x64, .f32⟩
  | .local _ .vmem, ⟨4, _⟩ => ⟨S64x64, .f32⟩
  | .local _ .vmem, ⟨5, _⟩ => ⟨S64x1, .f32⟩
  | _, _ => ⟨S8x64x32x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![8, 2], ![false, false]⟩

def k0_cond2 (i : grid0.Coords) : BitVec 1 :=
  let arg1 : BitVec 32 := BitVec.ofNat 32 (i 1).val
  let c1_i32 : BitVec 32 := 1#32
  let v20 : BitVec 1 := Scalar.cmpi .eq arg1 c1_i32
  let v21 : BitVec 32 := Scalar.extui v20
  let c0_i32_12 : BitVec 32 := 0#32
  let v22 : BitVec 1 := Scalar.cmpi .ne v21 c0_i32_12
  v22

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x64x65536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

class Facts₀ : Prop where
  shapeCasts_S8x64x32x64x64_S8x64x131072 : S8x64x32x64x64.ShapeCasts S8x64x131072
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S1x64x65536_S1x64x65536_0_0_0 : ∀ a, (![0, 0, 0] : Fin 3 → Nat) a + S1x64x65536.size a ≤ S1x64x65536.size a
  h_S1x64x65536 : 0 < S1x64x65536.numel
  shapeCasts_S1x64x65536_S64x65536 : S1x64x65536.ShapeCasts S64x65536
  bitsLt_bf16_f32 : FTy.bits .bf16 < FTy.bits .f32
  reduces_S64x65536_S64 : S64x65536.Reduces [1] S64
  shapeCasts_S64_S64x1 : S64.ShapeCasts S64x1
  transposes_S64x1_p1_0_S1x64 : S64x1.Transposes [1, 0] S1x64
  broadcasts_S64x1_S64x64 : S64x1.Broadcasts S64x64
  broadcasts_S1x64_S64x64 : S1x64.Broadcasts S64x64
  inb_S1x64x64_S1x64x64_0_0_0 : ∀ a, (![0, 0, 0] : Fin 3 → Nat) a + S1x64x64.size a ≤ S1x64x64.size a
  h_S1x64x64 : 0 < S1x64x64.numel
  shapeCasts_S1x64x64_S64x64 : S1x64x64.ShapeCasts S64x64
  shapeCasts_S64x64_S1x64x64 : S64x64.ShapeCasts S1x64x64
  dot_S64x65536_S64x65536_S64x64_1_1_0_0_n_n_wf : DotDims.WF S64x65536 S64x65536 S64x64 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x65536.size a ≤ S8x64x131072.size a
  hwx0_0 : ∀ i : grid0.Coords, EltTy.bits .f32 = 32 ∨ (Rect.block (s := S8x64x131072) S1x64x65536.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x64.size a ≤ S8x64x64.size a
  hwx0_1 : ∀ i : grid0.Coords, EltTy.bits .f32 = 32 ∨ (Rect.block (s := S8x64x64) S1x64x64.size (cc0_transform_1 i) (hinb0_1 i)).WholeWords (EltTy.packing .f32)

variable [Facts₀]

def dot_S64x65536_S64x65536_S64x64_1_1_0_0_n_n : DotDims S64x65536 S64x65536 S64x64 where
  lhsContracting := [1]
  rhsContracting := [1]
  lhsNonContracting := [0]
  rhsNonContracting := [0]
  lhsBatch := []
  rhsBatch := []
  wf := dot_S64x65536_S64x65536_S64x64_1_1_0_0_n_n_wf

abbrev win0_0 : Pipeline.Window sig grid0 :=
  Pipeline.Window.ofSpec (Memref.whole main_v0) S1x64x65536.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x64x64.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

class Facts : Prop extends Facts₀ where

variable [Facts]
-- ==== ReferenceIdeal.lean ====
abbrev S8x64x32x64x64 : Shape := ⟨5, ![8, 64, 32, 64, 64]⟩
abbrev S8x64x64x32x64 : Shape := ⟨5, ![8, 64, 64, 32, 64]⟩
abbrev S8x131072x64 : Shape := ⟨3, ![8, 131072, 64]⟩
abbrev S_ : Shape := ⟨0, ![]⟩
abbrev S8x64 : Shape := ⟨2, ![8, 64]⟩
abbrev S8x1x64 : Shape := ⟨3, ![8, 1, 64]⟩
abbrev S8x64x64 : Shape := ⟨3, ![8, 64, 64]⟩

abbrev nBuf : Space → Nat
  | .hbm => 15
  | .vmem => 0
  | .smem => 0
  | _ => 0

abbrev bufTy : (tb : Table) → Fin (tcTables nBuf tb) → BufTy
  | .hbm, ⟨0, _⟩ => ⟨S8x64x32x64x64, .f32⟩
  | .hbm, ⟨1, _⟩ => ⟨S8x64x64x32x64, .f32⟩
  | .hbm, ⟨2, _⟩ => ⟨S8x131072x64, .f32⟩
  | .hbm, ⟨3, _⟩ => ⟨S_, .f32⟩
  | .hbm, ⟨4, _⟩ => ⟨S8x64, .f32⟩
  | .hbm, ⟨5, _⟩ => ⟨S8x1x64, .f32⟩
  | .hbm, ⟨6, _⟩ => ⟨S_, .f32⟩
  | .hbm, ⟨7, _⟩ => ⟨S8x1x64, .f32⟩
  | .hbm, ⟨8, _⟩ => ⟨S8x1x64, .f32⟩
  | .hbm, ⟨9, _⟩ => ⟨S8x131072x64, .f32⟩
  | .hbm, ⟨10, _⟩ => ⟨S8x131072x64, .f32⟩
  | .hbm, ⟨11, _⟩ => ⟨S8x64x64, .f32⟩
  | .hbm, ⟨12, _⟩ => ⟨S_, .f32⟩
  | .hbm, ⟨13, _⟩ => ⟨S8x64x64, .f32⟩
  | .hbm, ⟨14, _⟩ => ⟨S8x64x64, .f32⟩
  | _, _ => ⟨S8x64x32x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_1 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]

class Facts₀ : Prop where
  transposes_S8x64x32x64x64_S8x64x64x32x64_0_3_4_2_1 : S8x64x32x64x64.Transposes [0, 3, 4, 2, 1] S8x64x64x32x64
  shapeCasts_S8x64x64x32x64_S8x131072x64 : S8x64x64x32x64.ShapeCasts S8x131072x64
  reducesTo_S8x131072x64_S8x64_d1 : S8x131072x64.ReducesTo [1] S8x64
  h_S_ : 0 < S_.numel
  bcast_S8x64_S8x1x64_0_2 : S8x64.BroadcastsInDim S8x1x64 (![0, 2] : Fin 2 → Fin S8x1x64.rank)
  bcast_S_S8x1x64 : S_.BroadcastsInDim S8x1x64 (![] : Fin 0 → Fin S8x1x64.rank)
  bcast_S8x1x64_S8x131072x64_0_1_2 : S8x1x64.BroadcastsInDim S8x131072x64 (![0, 1, 2] : Fin 3 → Fin S8x131072x64.rank)
  bcast_S_S8x64x64 : S_.BroadcastsInDim S8x64x64 (![] : Fin 0 → Fin S8x64x64.rank)
  dot_S8x131072x64_S8x131072x64_S8x64x64_1_1_2_2_0_0_wf : DotDims.WF S8x131072x64 S8x131072x64 S8x64x64 [1] [1] [2] [2] [0] [0]

variable [Facts₀]

def dot_S8x131072x64_S8x131072x64_S8x64x64_1_1_2_2_0_0 : DotDims S8x131072x64 S8x131072x64 S8x64x64 where
  lhsContracting := [1]
  rhsContracting := [1]
  lhsNonContracting := [2]
  rhsNonContracting := [2]
  lhsBatch := [0]
  rhsBatch := [0]
  wf := dot_S8x131072x64_S8x131072x64_S8x64x64_1_1_2_2_0_0_wf

class Facts : Prop extends Facts₀ where

variable [Facts]
-- ==== Proof.BodyCases.lean ====
/-
  What one run of the kernel body leaves behind, as values.

  The body keeps two running totals across the two column tiles of a batch: a 64 × 64 matrix of pairwise
  products and a 64 × 1 column of row sums.  On the first tile both totals are reset to zero and the tile's
  contribution is added; on the second tile the contribution is added to what the first tile left, and the
  covariance block is formed from the two totals and stored.  Each lemma below says that the contents a case
  of the body leaves in a buffer are one pure function (a payload of the body) of what the body loaded.
-/
import proofs.«103165_j25031069401648_2_alg».proof.Proof.Gen.KernelIdeal.Frame
import Idealize.ShloMosaic.Lib.Pipeline.Value
import Idealize.ShloMosaic.Lib.Tactic

noncomputable section

open Idealize.ShloMosaic Idealize.ShloMosaic.TcCoe Idealize.ShloMosaic.Tactic Idealize.SL.Sem
open Idealize.ShloMosaic.Pipeline (Dat)

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- First tile, the matrix of products: the zero matrix the reset stored, plus this tile's products. -/
theorem prodTotal_first (c : Dev nD) (i : grid0.Coords) (a2 : Memref sig .tc .vmem S1x64x65536 .f32) (h2 : a2.IsWhole)
    (a3 : Memref sig .tc .vmem S1x64x64 .f32) (h3 : a3.IsWhole) (a4 : Memref sig .tc .vmem S64x64 .f32) (h4 : a4.IsWhole)
    (a5 : Memref sig .tc .vmem S64x1 .f32) (h5 : a5.IsWhole) (hc0 : cond0_0 i) (hc1 : ¬cond0_1 i)
    (x0 : Vec F S1x64x65536 .f32) :
    sout0_A_0 c i a2 h2 a3 h3 a4 h4 a5 h5 hc0 hc1 x0 = k0_pay4 x0 (k0_pay1 (F := F)) := by
  unfold sout0_A_0
  rw [View.read_writes_eq_canon _ _ _ (scover0_A_0 c i a2 h2 a3 h3 a4 h4 a5 h5 hc0 hc1 x0)]
  unfold kernelRun0_A
  dsimp only
  sl_unfold_words
  rw [View.canon_cons_unit_zero (S := S64x64) hz2, View.readCov_unit_zero (S := S64x64) _ hz2]
  simp only [View.readAt_eq_ld, h2.read_unread, View.ld_unit_zero (S := S1x64x65536) hz3]

/-- First tile, the column of row sums: the zero column the reset stored, plus this tile's row sums. -/
theorem sumTotal_first (c : Dev nD) (i : grid0.Coords) (a2 : Memref sig .tc .vmem S1x64x65536 .f32) (h2 : a2.IsWhole)
    (a3 : Memref sig .tc .vmem S1x64x64 .f32) (h3 : a3.IsWhole) (a4 : Memref sig .tc .vmem S64x64 .f32) (h4 : a4.IsWhole)
    (a5 : Memref sig .tc .vmem S64x1 .f32) (h5 : a5.IsWhole) (hc0 : cond0_0 i) (hc1 : ¬cond0_1 i)
    (x0 : Vec F S1x64x65536 .f32) :
    sout0_A_1 c i a2 h2 a3 h3 a4 h4 a5 h5 hc0 hc1 x0 = k0_pay5 x0 (k0_pay2 (F := F)) := by
  unfold sout0_A_1
  rw [View.read_writes_eq_canon _ _ _ (scover0_A_1 c i a2 h2 a3 h3 a4 h4 a5 h5 hc0 hc1 x0)]
  unfold kernelRun0_A
  dsimp only
  sl_unfold_words
  rw [View.canon_cons_unit_zero (S := S64x1) hz2, View.readCov_unit_zero (S := S64x1) _ hz2]
  simp only [View.readAt_eq_ld, h2.read_unread, View.ld_unit_zero (S := S1x64x65536) hz3]

/-- Second tile, the matrix of products: what the first tile left, plus this tile's products. -/
theorem prodTotal_second (c : Dev nD) (i : grid0.Coords) (a2 : Memref sig .tc .vmem S1x64x65536 .f32) (h2 : a2.IsWhole)
    (a3 : Memref sig .tc .vmem S1x64x64 .f32) (h3 : a3.IsWhole) (a4 : Memref sig .tc .vmem S64x64 .f32) (h4 : a4.IsWhole)
    (a5 : Memref sig .tc .vmem S64x1 .f32) (h5 : a5.IsWhole) (hc0 : ¬cond0_0 i) (hc1 : cond0_1 i)
    (x0 : Vec F S1x64x65536 .f32) (xs0 : Vec F S64x64 .f32) (xs1 : Vec F S64x1 .f32) :
    sout0_B_0 c i a2 h2 a3 h3 a4 h4 a5 h5 hc0 hc1 x0 xs0 xs1 = k0_pay4 x0 xs0 := by
  unfold sout0_B_0
  rw [View.read_writes_eq_canon _ _ _ (scover0_B_0 c i a2 h2 a3 h3 a4 h4 a5 h5 hc0 hc1 x0 xs0 xs1)]
  unfold kernelRun0_B
  dsimp only
  sl_unfold_words
  rw [View.canon_unit_zero hz2]
  simp only [View.readAt_eq_ld, h2.read_unread, h4.read_unread, View.ld_unit_zero (S := S1x64x65536) hz3,
    View.ld_unit_zero (S := S64x64) hz2]

/-- Second tile, the column of row sums: what the first tile left, plus this tile's row sums. -/
theorem sumTotal_second (c : Dev nD) (i : grid0.Coords) (a2 : Memref sig .tc .vmem S1x64x65536 .f32) (h2 : a2.IsWhole)
    (a3 : Memref sig .tc .vmem S1x64x64 .f32) (h3 : a3.IsWhole) (a4 : Memref sig .tc .vmem S64x64 .f32) (h4 : a4.IsWhole)
    (a5 : Memref sig .tc .vmem S64x1 .f32) (h5 : a5.IsWhole) (hc0 : ¬cond0_0 i) (hc1 : cond0_1 i)
    (x0 : Vec F S1x64x65536 .f32) (xs0 : Vec F S64x64 .f32) (xs1 : Vec F S64x1 .f32) :
    sout0_B_1 c i a2 h2 a3 h3 a4 h4 a5 h5 hc0 hc1 x0 xs0 xs1 = k0_pay5 x0 xs1 := by
  unfold sout0_B_1
  rw [View.read_writes_eq_canon _ _ _ (scover0_B_1 c i a2 h2 a3 h3 a4 h4 a5 h5 hc0 hc1 x0 xs0 xs1)]
  unfold kernelRun0_B
  dsimp only
  sl_unfold_words
  rw [View.canon_unit_zero hz2]
  simp only [View.readAt_eq_ld, h2.read_unread, h5.read_unread, View.ld_unit_zero (S := S1x64x65536) hz3,
    View.ld_unit_zero (S := S64x1) hz2]

/-- Second tile, the output block: the covariance formed from the two totals as they stand after this tile. -/
theorem block_second (c : Dev nD) (i : grid0.Coords) (a2 : Memref sig .tc .vmem S1x64x65536 .f32) (h2 : a2.IsWhole)
    (a3 : Memref sig .tc .vmem S1x64x64 .f32) (h3 : a3.IsWhole) (a4 : Memref sig .tc .vmem S64x64 .f32) (h4 : a4.IsWhole)
    (a5 : Memref sig .tc .vmem S64x1 .f32) (h5 : a5.IsWhole) (hc0 : ¬cond0_0 i) (hc1 : cond0_1 i)
    (x0 : Vec F S1x64x65536 .f32) (xs0 : Vec F S64x64 .f32) (xs1 : Vec F S64x1 .f32) :
    out0_B_1 c i a2 h2 a3 h3 a4 h4 a5 h5 hc0 hc1 x0 xs0 xs1 = k0_pay6 (k0_pay5 x0 xs1) (k0_pay4 x0 xs0) := by
  unfold out0_B_1
  rw [View.read_writes_eq_canon _ _ _ (cover0_B_1 c i a2 h2 a3 h3 a4 h4 a5 h5 hc0 hc1 x0 xs0 xs1)]
  unfold kernelRun0_B
  dsimp only
  sl_unfold_words
  rw [View.canon_unit_zero hz3, View.readCov_unit_zero (S := S64x1) _ hz2, View.readCov_unit_zero (S := S64x64) _ hz2]
  simp only [View.readAt_eq_ld, h2.read_unread, h4.read_unread, h5.read_unread,
    View.ld_unit_zero (S := S1x64x65536) hz3, View.ld_unit_zero (S := S64x64) hz2, View.ld_unit_zero (S := S64x1) hz2]

end Cert.KernelIdeal.Pieces

end
-- ==== Proof.CovSpec.lean ====
/-
  The covariance both programs compute, as one function of the argument array, and the algebra that joins the two
  ways of computing it.

  The argument is x[b, g, c, h, w] with extents 8, 64, 32, 64, 64.  For a batch b, row g is the vector of the
  N = 32 · 64 · 64 = 131072 entries x[b, g, ·, ·, ·].  With S(g) = ∑ₙ row(g)ₙ and P(g, e) = ∑ₙ row(g)ₙ · row(e)ₙ,

      cov[b, g, e] = (P(g, e) − N · ((S(g) · N⁻¹) · (S(e) · N⁻¹))) · N⁻¹,

  the "second moment minus N times the outer product of the means" form.  The other form first subtracts the mean
  μ(g) = S(g) / N from every entry and then sums products:  (∑ₙ (row(g)ₙ − μ(g)) · (row(e)ₙ − μ(e))) / N.  Over the reals
  the two agree (expand the product, use ∑ₙ 1 = N and N · N⁻¹ = 1); over the extended reals they agree when every
  entry is a real number, which is what the precondition says.  The order in which the N entries of a row are
  enumerated does not matter to either sum.
-/
import Idealize.ShloMosaic.PureOps.Ideal
import Idealize.ShloMosaic.PureOps.Ideal.Laws
import Idealize.ShloMosaic.Lib.ValueIdx

noncomputable section

open scoped BigOperators

namespace Cert.CovSpec

open Idealize.ShloMosaic Idealize.ShloMosaic.ValueIdx

/-- The argument's shape and the result's. -/
abbrev SX : Shape := ⟨5, ![8, 64, 32, 64, 64]⟩
abbrev SO : Shape := ⟨3, ![8, 64, 64]⟩

/-- The two float literals of the programs: N = 131072 = 2¹⁷ and its reciprocal 2⁻¹⁷, both exact in f32. -/
abbrev cN : EReal := Ideal.ofBits .f32 0x48000000#32
abbrev cI : EReal := Ideal.ofBits .f32 0x37000000#32

theorem cN_eq : cN = ((131072 : ℝ) : EReal) := by
  simp [cN, Ideal.ofBits, Ideal.ieee, -EReal.coe_mul]; norm_num

theorem cI_eq : cI = ((1 / 131072 : ℝ) : EReal) := by
  simp [cI, Ideal.ofBits, Ideal.ieee, -EReal.coe_mul]; norm_num

/-- Entry `n` of row `g` of batch `b`, the three trailing axes (c, h, w) flattened row-major: n = c · 4096 + h · 64 + w. -/
def xrow (x : SX.Idx → EReal) (b : Fin 8) (g : Fin 64) (n : ℕ) : EReal :=
  x (ix5 b g ⟨n / 4096 % 32, Nat.mod_lt _ (by decide)⟩ ⟨n / 64 % 64, Nat.mod_lt _ (by decide)⟩ ⟨n % 64, Nat.mod_lt _ (by decide)⟩)

/-- The sum of a row, and the sum of products of two rows. -/
def rowSum (x : SX.Idx → EReal) (b : Fin 8) (g : Fin 64) : EReal := ∑ n : Fin 131072, xrow x b g n.val
def prodSum (x : SX.Idx → EReal) (b : Fin 8) (g e : Fin 64) : EReal := ∑ n : Fin 131072, xrow x b g n.val * xrow x b e n.val

/-- THE SPECIFICATION: the covariance block, entry by entry. -/
def cov (x : SX.Idx → EReal) (i : SO.Idx) : EReal :=
  (prodSum x (i 0) (i 1) (i 2) - cN * ((rowSum x (i 0) (i 1) * cI) * (rowSum x (i 0) (i 2) * cI))) * cI

/-! ## Two half-length sums are the full-length sum -/

/-- A sum over 131072 consecutive naturals is the sum over the first 65536 plus the sum over the next 65536
    (only associativity and commutativity of addition: no finiteness needed). -/
theorem sum_halves {M : Type*} [AddCommMonoid M] (f : ℕ → M) :
    ∑ n : Fin 131072, f n.val = (∑ k : Fin 65536, f k.val) + ∑ k : Fin 65536, f (65536 + k.val) := by
  have h := (finProdFinEquiv (m := 2) (n := 65536)).sum_comp (fun n : Fin (2 * 65536) => f n.val)
  rw [Fintype.sum_prod_type, Fin.sum_univ_two] at h
  refine h.symm.trans ?_
  refine congrArg₂ (· + ·) (Finset.sum_congr rfl fun k _ => congrArg f ?_) (Finset.sum_congr rfl fun k _ => congrArg f ?_)
  · rw [finProdFinEquiv_apply_val]; simp
  · rw [finProdFinEquiv_apply_val]; simp [Nat.add_comm]

/-! ## The algebra over the reals -/

/-- A real sum, coerced, is the sum of the coerced terms. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The two forms of the covariance agree over the reals, for vectors indexed by any finite type of N elements. -/
theorem cov_identity {ι : Type*} [Fintype ι] (u v : ι → ℝ) (N : ℝ) (hN : (Fintype.card ι : ℝ) = N) (hN0 : N ≠ 0) :
    (∑ n, (u n - (∑ k, u k) * (1 / N)) * (v n - (∑ k, v k) * (1 / N))) * (1 / N)
      = (∑ n, u n * v n - N * ((∑ k, u k) * (1 / N) * ((∑ k, v k) * (1 / N)))) * (1 / N) := by
  congr 1
  have e : ∀ a b : ℝ, ∑ n, (u n - a) * (v n - b) = ∑ n, u n * v n - b * ∑ n, u n - a * ∑ n, v n + N * (a * b) := by
    intro a b
    have h : ∀ n, (u n - a) * (v n - b) = u n * v n - b * u n - a * v n + a * b := fun n => by ring
    simp only [h, Finset.sum_add_distrib, Finset.sum_sub_distrib, ← Finset.mul_sum, Finset.sum_const, Finset.card_univ,
      nsmul_eq_mul, hN]
    ring
  rw [e]
  field_simp
  ring

/-- The same over the extended reals, when every entry is a real number: the "subtract the mean, sum the products,
    divide by N" form, with its divisions by the literal N, is the "second moment minus N times the outer product
    of the means" form, with its multiplications by the literal N⁻¹. -/
theorem centered_eq_moments (u v : Fin 131072 → ℝ) :
    Ideal.div (∑ n, ((u n : EReal) - Ideal.div (0 + ∑ k, (u k : EReal)) cN) * ((v n : EReal) - Ideal.div (0 + ∑ k, (v k : EReal)) cN)) cN
      = (∑ n, (u n : EReal) * (v n : EReal) - cN * ((∑ k, (u k : EReal)) * cI * ((∑ k, (v k : EReal)) * cI))) * cI := by
  have hN0 : (131072 : ℝ) ≠ 0 := by norm_num
  rw [cN_eq, cI_eq]
  simp only [Ideal.div_coe hN0, zero_add, ← coe_sum, ← EReal.coe_mul, ← EReal.coe_sub]
  exact congrArg _ (cov_identity u v 131072 (by simp) hN0)

end Cert.CovSpec

end
-- ==== Proof.LibLayout.lean ====
/-
  Layout operations around a unit MIDDLE or TRAILING axis, read at an index written by coordinates,
  for any element type and any extents: a shape cast that drops or inserts a unit axis in the middle
  ([a,1,b] ↔ [a,b]), the "keepdims" column of a vector ([a] → [a,1]) and its broadcast along the rows
  ([a,1] → [a,b]).  Each is the library's read-at-an-index lemma with the row-major arithmetic done.
-/
import Idealize.ShloMosaic.Lib.Pipeline.Value
import Idealize.ShloMosaic.Lib.ValueIdx
import Idealize.ShloMosaic.Lib.ValueLayout

namespace Idealize.ShloMosaic.ValueIdx

open Idealize.ShloMosaic

variable {α : Type}

/-- An `[a, 1, b]` array cast to `[a, b]` reads, at `(i, j)`, the operand at `(i, 0, j)`. -/
theorem shapeCast_a1b_ab_apply {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

/-- An `[a, b]` array cast to `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- A vector `[a]` cast to the column `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, j)`, the column at row `i`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Idealize.ShloMosaic.ValueIdx
-- ==== Proof.BodyValues.lean ====
/-
  The body's arithmetic, read entry by entry over the extended reals.

  One run of the body on a 64 × 65536 tile A adds to the running matrix of products the products of the tile's rows,
  (g, e) ↦ ∑ₖ A[g, k] · A[e, k], and to the running column of row sums the tile's row sums, g ↦ ∑ₖ A[g, k]  (rounding to
  bfloat16 and back is the identity over the extended reals).  From a column of sums s and a matrix of products p the last
  run forms the block  (g, e) ↦ (p[g, e] − N · ((s[g] · N⁻¹) · (s[e] · N⁻¹))) · N⁻¹.
-/
import proofs.«103165_j25031069401648_2_alg».proof.Proof.Gen.KernelIdeal.Skeleton
import proofs.«103165_j25031069401648_2_alg».proof.Proof.CovSpec
import proofs.«103165_j25031069401648_2_alg».proof.Proof.LibLayout
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.BodyValues

open Cert.KernelIdeal Cert.KernelIdeal.Gen Idealize.ShloMosaic Idealize.ShloMosaic.ValueIdx Cert.CovSpec

/-- The tile product's dimensions: both operands 64 × 65536, contracted along their second axis. -/
abbrev DD : DotDims S64x65536 S64x65536 S64x64 := dot_S64x65536_S64x65536_S64x64_1_1_0_0_n_n

theorem lhs_row (i : S64x64.Idx) (q : DD.contr.Idx) : (DD.lhsIdx i q 0).val = (i 0).val := by
  unfold DotDims.lhsIdx
  rw [dif_neg (show ¬(0 : Fin S64x65536.rank) ∈ DD.lhsBatch by decide), dif_pos (show (0 : Fin S64x65536.rank) ∈ DD.lhsNonContracting by decide)]
  rfl
theorem lhs_col (i : S64x64.Idx) (q : DD.contr.Idx) : (DD.lhsIdx i q 1).val = (q ⟨0, by decide⟩).val :=
  DD.lhsIdx_val_of_single rfl i q
theorem rhs_row (i : S64x64.Idx) (q : DD.contr.Idx) : (DD.rhsIdx i q 0).val = (i 1).val := by
  unfold DotDims.rhsIdx
  rw [dif_neg (show ¬(0 : Fin S64x65536.rank) ∈ DD.rhsBatch by decide), dif_pos (show (0 : Fin S64x65536.rank) ∈ DD.rhsNonContracting by decide)]
  rfl
theorem rhs_col (i : S64x64.Idx) (q : DD.contr.Idx) : (DD.rhsIdx i q 1).val = (q ⟨0, by decide⟩).val :=
  DD.rhsIdx_val_of_single rfl i q

/-- The matrix the reset stores is zero. -/
theorem zero_matrix (g e : Fin 64) : k0_pay1 (F := Ideal) (ix2 g e) = 0 := by
  unfold k0_pay1
  simp only [shapeCast_self]
  exact Ideal.ofBits_zero_f32

/-- The column the reset stores is zero. -/
theorem zero_column (g : Fin 64) (u : Fin 1) : k0_pay2 (F := Ideal) (ix2 g u) = 0 := by
  unfold k0_pay2
  simp only [shapeCast_self]
  exact Ideal.ofBits_zero_f32

/-- One tile's contribution to the matrix of products. -/
theorem add_products (x0 : Vec Ideal S1x64x65536 .f32) (acc : Vec Ideal S64x64 .f32) (g e : Fin 64) :
    k0_pay4 x0 acc (ix2 g e) = acc (ix2 g e) + ∑ k : Fin 65536, x0 (ix3 (0 : Fin 1) g k) * x0 (ix3 (0 : Fin 1) e k) := by
  unfold k0_pay4 k0_pay3
  simp only [shapeCast_self]
  refine congrArg (acc (ix2 g e) + ·) ?_
  refine (Ideal.matmul_constant_zero_apply DD none _ _ (ix2 g e)).trans ?_
  rw [← Equiv.sum_comp (contrEquiv1 DD 65536 rfl rfl).symm]
  refine Finset.sum_congr rfl fun k _ => ?_
  have hk := contrEquiv1_symm_val DD 65536 rfl rfl k
  have el : DD.lhsIdx (ix2 g e) ((contrEquiv1 DD 65536 rfl rfl).symm k) = ix2 g k := funext fun a => Fin.ext (by
    match a with
    | ⟨0, _⟩ => exact lhs_row _ _
    | ⟨1, _⟩ => exact (lhs_col _ _).trans hk)
  have er : DD.rhsIdx (ix2 g e) ((contrEquiv1 DD 65536 rfl rfl).symm k) = ix2 e k := funext fun a => Fin.ext (by
    match a with
    | ⟨0, _⟩ => exact rhs_row _ _
    | ⟨1, _⟩ => exact (rhs_col _ _).trans hk)
  rw [el, er]
  exact congrArg₂ (· * ·) (shapeCast_1ab_ab_apply x0 _ g k) (shapeCast_1ab_ab_apply x0 _ e k)

/-- One tile's contribution to the column of row sums. -/
theorem add_sums (x0 : Vec Ideal S1x64x65536 .f32) (acc : Vec Ideal S64x1 .f32) (g : Fin 64) (u : Fin 1) :
    k0_pay5 x0 acc (ix2 g u) = acc (ix2 g u) + ∑ k : Fin 65536, x0 (ix3 (0 : Fin 1) g k) := by
  unfold k0_pay5 k0_pay3
  simp only [shapeCast_self]
  refine congrArg (acc (ix2 g u) + ·) ?_
  refine (shapeCast_a_a1_apply _ _ g u).trans ?_
  refine (Ideal.multiReduction_add_single _ 0x00000000#32 reduces_S64x65536_S64 (.inl rfl) rfl (ix1 g)).trans ?_
  refine Finset.sum_congr rfl fun k _ => ?_
  have hl : reduces_S64x65536_S64.lift (ix1 g) k = ix2 g k := funext fun a => Fin.ext (by
    match a with
    | ⟨0, _⟩ => rfl
    | ⟨1, _⟩ => rfl)
  rw [hl]
  exact shapeCast_1ab_ab_apply x0 _ g k

/-- The block formed from a column of sums and a matrix of products. -/
theorem form_block (s : Vec Ideal S64x1 .f32) (p : Vec Ideal S64x64 .f32) (u : Fin 1) (g e : Fin 64) :
    k0_pay6 s p (ix3 u g e)
      = (p (ix2 g e) - cN * ((s (ix2 g (0 : Fin 1)) * cI) * (s (ix2 e (0 : Fin 1)) * cI))) * cI := by
  unfold k0_pay6
  refine (shapeCast_ab_1ab_apply _ _ u g e).trans ?_
  refine congrArg (· * cI) ?_
  refine congrArg (p (ix2 g e) - cN * ·) ?_
  refine congrArg₂ (· * ·) ?_ ?_
  · exact (broadcastTo_a1_ab_apply _ _ g e)
  · exact (broadcastTo_1b_ab_apply _ _ g e).trans (transpose_ix2_apply _ _ (0 : Fin 1) e)

end Cert.KernelIdeal.BodyValues

end
-- ==== Proof.KernelValue.lean ====
/-
  What the kernel's result array holds after the run: the covariance `CovSpec.cov` of the argument array.

  The grid has 16 points, two per batch: point 2b works on the first 65536 columns of batch b's 64 × 131072 matrix
  (the argument with its three trailing axes flattened), point 2b + 1 on the last 65536.  After point 2b the two running
  totals hold the first tile's products and row sums; after point 2b + 1 they hold the whole rows' products and sums,
  and the output block — written back only at the odd points — is the covariance formed from them.  Two half-length
  sums are the full-length sum, so the block is `cov` read at batch b; the eight blocks tile the result array.
-/
import proofs.«103165_j25031069401648_2_alg».proof.Proof.Gen.KernelIdeal.Value
import proofs.«103165_j25031069401648_2_alg».proof.Proof.BodyCases
import proofs.«103165_j25031069401648_2_alg».proof.Proof.BodyValues
import proofs.«103165_j25031069401648_2_alg».proof.Proof.CovSpec
import Idealize.ShloMosaic.Lib.Pipeline.Value
import Idealize.ShloMosaic.Lib.StableHlo.Run
import Idealize.ShloMosaic.Lib.Tactic

noncomputable section

open scoped BigOperators

namespace Cert.KernelIdeal.CovValue

open Cert.KernelIdeal Cert.KernelIdeal.Gen Idealize.ShloMosaic Idealize.ShloMosaic.TcCoe Idealize.SL.Sem
open Idealize.ShloMosaic.ValueIdx Cert.CovSpec
open Idealize.ShloMosaic.Pipeline (Dat)

variable (m : (ℓ : Loc nD τ sig) → Buf (Elt Ideal) ℓ) (ρ : Dev nD → PrngReg)

/-- The argument array on core `c`, as a function from indices to extended reals. -/
abbrev arg (c : Dev nD) : SX.Idx → EReal := m ((c : Thread nD τ).loc main_arg0)

/-! ## The array the region reads: the argument, its trailing axes flattened -/

theorem entry_reshape (c : Dev nD) :
    (V m c main_v0 : S8x64x131072.Idx → EReal)
      = shapeCast S8x64x131072 (m ((c : Thread nD τ).loc main_arg0)) shapeCasts_S8x64x32x64x64_S8x64x131072 := by
  dsimp only [Gen.V, Gen.hostOps0]; after_results; rfl

/-- Entry (b, g, n) of the flattened array is entry n of row g of batch b. -/
theorem entry_apply (c : Dev nD) (b : Fin 8) (g : Fin 64) (n : Fin 131072) :
    (V m c main_v0 : S8x64x131072.Idx → EReal) (ix3 b g n) = xrow (arg m c) b g n.val := by
  rw [entry_reshape]
  unfold xrow
  exact shapeCast_apply _ shapeCasts_S8x64x32x64x64_S8x64x131072 (ix3 b g n) _ (by
    rewrite [Shape.rowMajor_val_five, Shape.rowMajor_val_three]
    have hb := b.isLt; have hg := g.isLt; have hn := n.isLt
    show ((((b.val * 64 + g.val) * 32 + n.val / 4096 % 32) * 64 + n.val / 64 % 64) * 64 + n.val % 64)
      = (b.val * 64 + g.val) * 131072 + n.val
    omega)

/-! ## A tile read at an index -/

/-- The input window's block index at a point: batch t / 2, all 64 rows, column tile t mod 2. -/
theorem idx_in : ∀ t : Fin cfg0.N, win0_0.index t (0 : Fin 3) = t.val / 2 ∧ win0_0.index t (1 : Fin 3) = 0
    ∧ win0_0.index t (2 : Fin 3) = t.val % 2 :=
  (by decide +kernel : ∀ t : Fin grid0.N, _)

/-- The tile the body loads at point 2b + j: its entry (g, k) is entry j · 65536 + k of row g of batch b. -/
theorem tile_apply (c : Dev nD) (t : Fin cfg0.N) (b : Fin 8) (j : Fin 2) (ht : t.val = 2 * b.val + j.val)
    (u : Fin 1) (g : Fin 64) (k : Fin 65536) :
    (iblk m c 0 t : Vec Ideal S1x64x65536 .f32) (ix3 u g k) = xrow (arg m c) b g (j.val * 65536 + k.val) := by
  obtain ⟨e0, e1, e2⟩ := idx_in t
  have hb := b.isLt; have hj := j.isLt; have hk := k.isLt; have hu := u.isLt
  have hn : j.val * 65536 + k.val < 131072 := by omega
  unfold iblk
  show (V m c main_v0 : S8x64x131072.Idx → EReal) (((cfg0.win 0).blk t).view.emb (ix3 u g k)) = _
  have he : ((cfg0.win 0).blk t).view.emb (ix3 u g k) = ix3 b g (⟨j.val * 65536 + k.val, hn⟩ : Fin 131072) := by
    funext a; apply Fin.ext
    match a with
    | ⟨0, _⟩ => show win0_0.index t (0 : Fin 3) * 1 + 1 * u.val = b.val; omega
    | ⟨1, _⟩ => show win0_0.index t (1 : Fin 3) * 64 + 1 * g.val = g.val; omega
    | ⟨2, _⟩ => show win0_0.index t (2 : Fin 3) * 65536 + 1 * k.val = j.val * 65536 + k.val; omega
  rw [he]
  exact entry_apply m c b g ⟨j.val * 65536 + k.val, hn⟩

/-! ## The running totals over a batch's two points -/

/-- After an even point the totals hold the first tile's contribution over zero. -/
theorem totals_after_first (c : Dev nD) (t : Fin cfg0.N) (h0 : t.val % 2 = 0) :
    (outsAt0 m c t.val t.isLt).2.1 = k0_pay4 (iblk m c 0 t) (k0_pay1 (F := Ideal))
      ∧ (outsAt0 m c t.val t.isLt).2.2 = k0_pay5 (iblk m c 0 t) (k0_pay2 (F := Ideal)) := by
  have h1 : ¬t.val % 2 = 1 := by omega
  rw [outsAt0_A m c t h0 h1]
  exact ⟨Pieces.prodTotal_first c (grid0.coords t) (ms0_0 t) (hs0_0 t) (ms0_1 t) (hs0_1 t) scM0_0 (Memref.isWhole_whole _) scM0_1 (Memref.isWhole_whole _) ((hcond0_0 t).mpr h0) (fun h => h1 ((hcond0_1 t).mp h)) (iblk m c 0 t),
    Pieces.sumTotal_first c (grid0.coords t) (ms0_0 t) (hs0_0 t) (ms0_1 t) (hs0_1 t) scM0_0 (Memref.isWhole_whole _) scM0_1 (Memref.isWhole_whole _) ((hcond0_0 t).mpr h0) (fun h => h1 ((hcond0_1 t).mp h)) (iblk m c 0 t)⟩

/-- After an odd point the output block is formed from both tiles' contributions. -/
theorem block_after_second (c : Dev nD) (t : Fin cfg0.N) (h1 : t.val % 2 = 1) (hlt : t.val - 1 < cfg0.N) :
    (outsAt0 m c t.val t.isLt).1
      = k0_pay6 (k0_pay5 (iblk m c 0 t) (k0_pay5 (iblk m c 0 ⟨t.val - 1, hlt⟩) (k0_pay2 (F := Ideal))))
          (k0_pay4 (iblk m c 0 t) (k0_pay4 (iblk m c 0 ⟨t.val - 1, hlt⟩) (k0_pay1 (F := Ideal)))) := by
  have h0 : ¬t.val % 2 = 0 := by omega
  have hp : (⟨t.val - 1, hlt⟩ : Fin cfg0.N).val % 2 = 0 := by show (t.val - 1) % 2 = 0; omega
  obtain ⟨eP, eS⟩ := totals_after_first m c ⟨t.val - 1, hlt⟩ hp
  rw [outsAt0_B m c t h0 h1]
  dsimp only
  rw [Pieces.block_second c (grid0.coords t) (ms0_0 t) (hs0_0 t) (ms0_1 t) (hs0_1 t) scM0_0 (Memref.isWhole_whole _) scM0_1 (Memref.isWhole_whole _) (fun h => h0 ((hcond0_0 t).mp h)) ((hcond0_1 t).mpr h1) (iblk m c 0 t)
    (outsAt0 m c (t.val - 1) (Nat.lt_of_le_of_lt (Nat.sub_le _ _) t.isLt)).2.1
    (outsAt0 m c (t.val - 1) (Nat.lt_of_le_of_lt (Nat.sub_le _ _) t.isLt)).2.2]
  exact congrArg₂ (fun s p => k0_pay6 (k0_pay5 (iblk m c 0 t) s) (k0_pay4 (iblk m c 0 t) p)) eS eP

/-- … and that block is the covariance of batch t / 2, entry by entry. -/
theorem block_apply (c : Dev nD) (t : Fin cfg0.N) (b : Fin 8) (ht : t.val = 2 * b.val + 1)
    (u : Fin 1) (g e : Fin 64) :
    (outsAt0 m c t.val t.isLt).1 (ix3 u g e) = cov (arg m c) (ix3 b g e) := by
  have hb := b.isLt
  have hlt : t.val - 1 < cfg0.N := lt_of_le_of_lt (Nat.sub_le _ _) t.isLt
  have ht0 : (⟨t.val - 1, hlt⟩ : Fin cfg0.N).val = 2 * b.val + (0 : Fin 2).val := by show t.val - 1 = 2 * b.val + 0; omega
  have ht1 : t.val = 2 * b.val + (1 : Fin 2).val := ht
  rw [block_after_second m c t (by omega) hlt, BodyValues.form_block]
  unfold cov prodSum rowSum
  simp only [BodyValues.add_products, BodyValues.add_sums, BodyValues.zero_matrix, BodyValues.zero_column, zero_add,
    tile_apply m c _ b 0 ht0, tile_apply m c t b 1 ht1]
  show (((∑ k : Fin 65536, xrow (arg m c) b g (0 * 65536 + k.val) * xrow (arg m c) b e (0 * 65536 + k.val))
        + ∑ k : Fin 65536, xrow (arg m c) b g (1 * 65536 + k.val) * xrow (arg m c) b e (1 * 65536 + k.val))
      - cN * ((((∑ k : Fin 65536, xrow (arg m c) b g (0 * 65536 + k.val)) + ∑ k : Fin 65536, xrow (arg m c) b g (1 * 65536 + k.val)) * cI)
        * (((∑ k : Fin 65536, xrow (arg m c) b e (0 * 65536 + k.val)) + ∑ k : Fin 65536, xrow (arg m c) b e (1 * 65536 + k.val)) * cI))) * cI = _
  simp only [Nat.zero_mul, Nat.zero_add, Nat.one_mul]
  rw [sum_halves (fun n => xrow (arg m c) b g n * xrow (arg m c) b e n), sum_halves (fun n => xrow (arg m c) b g n),
    sum_halves (fun n => xrow (arg m c) b e n)]

/-! ## From the blocks to the array -/

/-- The output window's block index at a point: batch t / 2, the whole 64 × 64 matrix. -/
theorem idx_out : ∀ t : Fin cfg0.N, win0_1.index t (0 : Fin 3) = t.val / 2 ∧ win0_1.index t (1 : Fin 3) = 0
    ∧ win0_1.index t (2 : Fin 3) = 0 :=
  (by decide +kernel : ∀ t : Fin grid0.N, _)

/-- What an odd point writes back is its block of `cov`. -/
theorem flushed_eq (c : Dev nD) (t : Fin cfg0.N) (hf : (cfg0.win 1).flush t = true) :
    (dats m 0 c).flushed 1 t = ((cfg0.win 1).blk t).view.read (Elt Ideal) (cov (arg m c)) := by
  have h1 : t.val % 2 = 1 := (flush0_1 t).mp hf
  have hN : t.val < 16 := lt_of_lt_of_eq t.isLt (show cfg0.N = 16 from N_0)
  obtain ⟨e0, e1, e2⟩ := idx_out t
  have hb : t.val / 2 < 8 := by omega
  rw [Value.flushed1]
  funext y
  show (outsAt0 m c t.val t.isLt).1 y = cov (arg m c) (((cfg0.win 1).blk t).view.emb y)
  have hy0 : (y 0).val < 1 := (y 0).isLt
  have hy1 : (y 1).val < 64 := (y 1).isLt
  have hy2 : (y 2).val < 64 := (y 2).isLt
  have hy : y = ix3 (⟨(y 0).val, hy0⟩ : Fin 1) (⟨(y 1).val, hy1⟩ : Fin 64) (⟨(y 2).val, hy2⟩ : Fin 64) := by
    funext a
    match a with
    | ⟨0, _⟩ => rfl
    | ⟨1, _⟩ => rfl
    | ⟨2, _⟩ => rfl
  have he : ((cfg0.win 1).blk t).view.emb y = ix3 (⟨t.val / 2, hb⟩ : Fin 8) (⟨(y 1).val, hy1⟩ : Fin 64) (⟨(y 2).val, hy2⟩ : Fin 64) := by
    funext a; apply Fin.ext
    match a with
    | ⟨0, _⟩ => show win0_1.index t (0 : Fin 3) * 1 + 1 * (y 0).val = t.val / 2; omega
    | ⟨1, _⟩ => show win0_1.index t (1 : Fin 3) * 64 + 1 * (y 1).val = (y 1).val; omega
    | ⟨2, _⟩ => show win0_1.index t (2 : Fin 3) * 64 + 1 * (y 2).val = (y 2).val; omega
  rw [he]
  refine (congrArg (outsAt0 m c t.val t.isLt).1 hy).trans ?_
  exact block_apply m c t ⟨t.val / 2, hb⟩ (by show t.val = 2 * (t.val / 2) + 1; omega) _ _ _

/-- An index of the result array is in a point's block iff each coordinate is in the block's range on its axis. -/
theorem mem_blk (t : Fin cfg0.N) (i : S8x64x64.Idx) :
    i ∈ ((cfg0.win 1).blk t).view.set ↔ ∀ a : Fin 3, win0_1.index t a * S1x64x64.size a ≤ (i a).val
      ∧ (i a).val < win0_1.index t a * S1x64x64.size a + S1x64x64.size a := by
  show i ∈ ((View.whole main_v1).slice (win0_1.rect t)).set ↔ _
  rw [View.set_slice_whole, Rect.mem_set_unit]
  exact Iff.rfl

/-- Every index (b, g, e) of the result array is in the block the odd point 2b + 1 writes back. -/
theorem cover (i : S8x64x64.Idx) : ∃ t : Fin cfg0.N, (cfg0.win 1).flush t = true ∧ i ∈ ((cfg0.win 1).blk t).view.set := by
  have hi0 : (i 0).val < 8 := (i 0).isLt
  have hi1 : (i 1).val < 64 := (i 1).isLt
  have hi2 : (i 2).val < 64 := (i 2).isLt
  have hlt : 2 * (i 0).val + 1 < cfg0.N := by have h16 : cfg0.N = 16 := N_0; omega
  obtain ⟨e0, e1, e2⟩ := idx_out ⟨2 * (i 0).val + 1, hlt⟩
  have e0' : win0_1.index ⟨2 * (i 0).val + 1, hlt⟩ (0 : Fin 3) = (2 * (i 0).val + 1) / 2 := e0
  refine ⟨⟨2 * (i 0).val + 1, hlt⟩, (flush0_1 _).mpr (by show (2 * (i 0).val + 1) % 2 = 1; omega), ?_⟩
  rw [mem_blk]
  intro a
  match a with
  | ⟨0, _⟩ =>
    show win0_1.index ⟨2 * (i 0).val + 1, hlt⟩ (0 : Fin 3) * 1 ≤ (i 0).val
      ∧ (i 0).val < win0_1.index ⟨2 * (i 0).val + 1, hlt⟩ (0 : Fin 3) * 1 + 1
    omega
  | ⟨1, _⟩ =>
    show win0_1.index ⟨2 * (i 0).val + 1, hlt⟩ (1 : Fin 3) * 64 ≤ (i 1).val
      ∧ (i 1).val < win0_1.index ⟨2 * (i 0).val + 1, hlt⟩ (1 : Fin 3) * 64 + 64
    omega
  | ⟨2, _⟩ =>
    show win0_1.index ⟨2 * (i 0).val + 1, hlt⟩ (2 : Fin 3) * 64 ≤ (i 2).val
      ∧ (i 2).val < win0_1.index ⟨2 * (i 0).val + 1, hlt⟩ (2 : Fin 3) * 64 + 64
    omega

/-- THE RESULT ARRAY after the run is `cov` of the argument array. -/
theorem final (c : Dev nD) : (dats m 0 c).arrAt 1 cfg0.N = cov (arg m c) :=
  (dats m 0 c).arrAt_eq_of_cover 1 (cov (arg m c)) (fun t hf => flushed_eq m c t hf) cover

/-- The kernel's run, read: every weakly fair execution terminates with the result array at `cov` of the argument,
    the argument unchanged. -/
theorem run : θ_run defs (onTc (τ := τ) (main (F := Ideal))) ⟨m, fun _ => 0, ρ⟩ fun r => ∀ c : Dev nD,
      r.2.mem ((c : Thread nD τ).loc main_v1) = cov (arg m c)
      ∧ r.2.mem ((c : Thread nD τ).loc main_arg0) = m ((c : Thread nD τ).loc main_arg0) :=
  (θ_run defs _ _).mono (fun r h c => ⟨(h c).1.trans (final m c), (h c).2⟩) (Value.run_blocks m ρ)

end Cert.KernelIdeal.CovValue

end
-- ==== Proof.RefValue.lean ====
/-
  The reference's result, read entry by entry, is `CovSpec.cov` of its argument when every entry is a real number.

  The reference transposes the argument to (b, h, w, c, g), flattens (h, w, c) into one axis of 131072 positions, takes
  each column's mean over that axis, subtracts it, and contracts the centered matrix with itself over that axis, dividing
  by 131072.  Position k = h · 2048 + w · 32 + c of its flattened axis holds entry n = c · 4096 + h · 64 + w of a row in
  the specification's enumeration: the two enumerations differ by a permutation of the 131072 positions, which no sum
  over all of them sees.  What is left is the algebra of `CovSpec.centered_eq_moments`.
-/
import proofs.«103165_j25031069401648_2_alg».proof.Proof.Gen.ReferenceIdeal.Read
import proofs.«103165_j25031069401648_2_alg».proof.Proof.CovSpec
import Idealize.ShloMosaic.Lib.ValueIdx
import Idealize.ShloMosaic.PureOps.Ideal.Laws

noncomputable section

open scoped BigOperators

namespace Cert.ReferenceIdeal.RefValue

open Cert.ReferenceIdeal Cert.ReferenceIdeal.Read Idealize.ShloMosaic Idealize.ShloMosaic.ValueIdx Cert.CovSpec

/-! ## Three digits, written in two orders -/

/-- A position below 131072 has the three digits c = n / 4096, h = n / 64 mod 64, w = n mod 64. -/
theorem digits_chw (n : ℕ) (hn : n < 131072) :
    n = (n / 4096) * 4096 + (n / 64 % 64) * 64 + n % 64 ∧ n / 4096 < 32 := by
  constructor <;> omega

/-- … or, in the other order, h = k / 2048, w = k / 32 mod 64, c = k mod 32. -/
theorem digits_hwc (k : ℕ) (hk : k < 131072) :
    k = (k / 2048) * 2048 + (k / 32 % 64) * 32 + k % 32 ∧ k / 2048 < 64 := by
  constructor <;> omega

/-- Reading the digits back from the number written in the order (h, w, c). -/
theorem read_hwc (c h w : ℕ) (hc : c < 32) (hh : h < 64) (hw : w < 64) :
    (h * 2048 + w * 32 + c) % 32 = c ∧ (h * 2048 + w * 32 + c) / 2048 = h ∧ (h * 2048 + w * 32 + c) / 32 % 64 = w
      ∧ h * 2048 + w * 32 + c < 131072 := by
  refine ⟨by omega, by omega, by omega, by omega⟩

/-- Reading the digits back from the number written in the order (c, h, w). -/
theorem read_chw (c h w : ℕ) (hc : c < 32) (hh : h < 64) (hw : w < 64) :
    (c * 4096 + h * 64 + w) / 4096 = c ∧ (c * 4096 + h * 64 + w) / 64 % 64 = h ∧ (c * 4096 + h * 64 + w) % 64 = w
      ∧ c * 4096 + h * 64 + w < 131072 := by
  refine ⟨by omega, by omega, by omega, by omega⟩

/-- The permutation between the two enumerations of a row: entry n = c · 4096 + h · 64 + w sits at the reference's
    position h · 2048 + w · 32 + c. -/
def perm : Fin 131072 ≃ Fin 131072 where
  toFun n := ⟨(n.val / 64 % 64) * 2048 + (n.val % 64) * 32 + n.val / 4096,
    (read_hwc _ _ _ (digits_chw n.val n.isLt).2 (Nat.mod_lt _ (by decide)) (Nat.mod_lt _ (by decide))).2.2.2⟩
  invFun k := ⟨(k.val % 32) * 4096 + (k.val / 2048) * 64 + k.val / 32 % 64,
    (read_chw _ _ _ (Nat.mod_lt _ (by decide)) (digits_hwc k.val k.isLt).2 (Nat.mod_lt _ (by decide))).2.2.2⟩
  left_inv n := Fin.ext (by
    obtain ⟨e, hc⟩ := digits_chw n.val n.isLt
    obtain ⟨a1, a2, a3, -⟩ := read_hwc (n.val / 4096) (n.val / 64 % 64) (n.val % 64) hc (Nat.mod_lt _ (by decide)) (Nat.mod_lt _ (by decide))
    show (((n.val / 64 % 64) * 2048 + (n.val % 64) * 32 + n.val / 4096) % 32) * 4096
      + (((n.val / 64 % 64) * 2048 + (n.val % 64) * 32 + n.val / 4096) / 2048) * 64
      + ((n.val / 64 % 64) * 2048 + (n.val % 64) * 32 + n.val / 4096) / 32 % 64 = n.val
    rw [a1, a2, a3]
    exact e.symm)
  right_inv k := Fin.ext (by
    obtain ⟨e, hh⟩ := digits_hwc k.val k.isLt
    obtain ⟨a1, a2, a3, -⟩ := read_chw (k.val % 32) (k.val / 2048) (k.val / 32 % 64) (Nat.mod_lt _ (by decide)) hh (Nat.mod_lt _ (by decide))
    show ((((k.val % 32) * 4096 + (k.val / 2048) * 64 + k.val / 32 % 64) / 64 % 64) * 2048
      + (((k.val % 32) * 4096 + (k.val / 2048) * 64 + k.val / 32 % 64) % 64) * 32
      + ((k.val % 32) * 4096 + (k.val / 2048) * 64 + k.val / 32 % 64) / 4096) = k.val
    rw [a1, a2, a3]
    exact e.symm)

theorem perm_val (n : Fin 131072) : (perm n).val = (n.val / 64 % 64) * 2048 + (n.val % 64) * 32 + n.val / 4096 := rfl

/-- Where a flat position (b, p, d) of the reference's [8, 131072, 64] array sits in its [8, 64, 64, 32, 64] source,
    in terms of the digits of p. -/
theorem unflatten (b p d : ℕ) (hb : b < 8) (hp : p < 131072) (hd : d < 64) :
    ((b * 131072 + p) * 64 + d) / 8388608 = b ∧ ((b * 131072 + p) * 64 + d) % 64 = d
      ∧ ((b * 131072 + p) * 64 + d) / 64 % 32 = p % 32 ∧ ((b * 131072 + p) * 64 + d) / 131072 % 64 = p / 2048
      ∧ ((b * 131072 + p) * 64 + d) / 2048 % 64 = p / 32 % 64 := by
  refine ⟨by omega, by omega, by omega, by omega, by omega⟩

/-- The reference's flattened array at position `perm n` of column `d` of batch `b` is entry `n` of row `d`. -/
theorem flat_apply (x : SX.Idx → EReal) (b : Fin 8) (n : Fin 131072) (d : Fin 64) :
    val_main_v1 (F := Ideal) x (ix3 b (perm n) d) = xrow x b d n.val := by
  rw [val_main_v1_apply, val_main_v0_apply]
  unfold xrow
  refine congrArg x (funext fun a => Fin.ext ?_)
  obtain ⟨-, hc⟩ := digits_chw n.val n.isLt
  obtain ⟨a1, a2, a3, -⟩ := read_hwc (n.val / 4096) (n.val / 64 % 64) (n.val % 64) hc (Nat.mod_lt _ (by decide)) (Nat.mod_lt _ (by decide))
  obtain ⟨u0, u1, u2, u3, u4⟩ := unflatten b.val (perm n).val d.val b.isLt (perm n).isLt d.isLt
  rw [perm_val] at u2 u3 u4
  rw [a1] at u2; rw [a2] at u3; rw [a3] at u4
  match a with
  | ⟨0, _⟩ => exact u0
  | ⟨1, _⟩ => exact u1
  | ⟨2, _⟩ => exact u2.trans (Nat.mod_eq_of_lt hc).symm
  | ⟨3, _⟩ => exact u3
  | ⟨4, _⟩ => exact u4

/-- The reference's column sum is the row's sum, after the zero it starts from. -/
theorem colsum_apply (x : SX.Idx → EReal) (b : Fin 8) (d : Fin 64) :
    val_main_v2 (F := Ideal) x (ix2 b d) = 0 + ∑ n : Fin 131072, xrow x b d n.val := by
  rw [val_main_v2_apply, val_main_cst_apply]
  refine congrArg₂ (· + ·) Ideal.ofBits_zero_f32 ?_
  rw [← Equiv.sum_comp perm]
  refine Finset.sum_congr rfl fun n _ => ?_
  have hi : idx_main_v2 (ix2 b d) (perm n) = ix3 b (perm n) d := funext fun a => Fin.ext (by
    match a with
    | ⟨0, _⟩ => rfl
    | ⟨1, _⟩ => rfl
    | ⟨2, _⟩ => rfl)
  rw [hi]
  exact flat_apply x b n d

/-- The mean the reference subtracts at any position of column `d`: the column sum divided by the literal N. -/
theorem mean_apply (x : SX.Idx → EReal) (b : Fin 8) (k : Fin 131072) (d : Fin 64) :
    val_main_v6 (F := Ideal) x (ix3 b k d) = Ideal.div (0 + ∑ n : Fin 131072, xrow x b d n.val) cN := by
  rw [val_main_v6_apply, val_main_v5_apply, val_main_v3_apply, val_main_v4_apply, val_main_cst_0_apply]
  have hi : idx_main_v3 (idx_main_v6 (ix3 b k d)) = ix2 b d := funext fun a => Fin.ext (by
    match a with
    | ⟨0, _⟩ => rfl
    | ⟨1, _⟩ => rfl)
  rw [hi, colsum_apply]
  rfl

/-- The centered entry. -/
theorem centered_apply (x : SX.Idx → EReal) (b : Fin 8) (n : Fin 131072) (d : Fin 64) :
    val_main_v7 (F := Ideal) x (ix3 b (perm n) d)
      = xrow x b d n.val - Ideal.div (0 + ∑ n : Fin 131072, xrow x b d n.val) cN := by
  rw [val_main_v7_apply, flat_apply, mean_apply]
  rfl

/-- THE REFERENCE IS THE SPECIFICATION, at an argument whose every entry is a real number. -/
theorem ref_eq_cov (x : SX.Idx → EReal) (hfin : ∀ i, ∃ r : ℝ, x i = (r : EReal)) :
    val_main_v10 (F := Ideal) x = cov x := by
  choose xr hxr using hfin
  funext i
  obtain ⟨b, d, e, rfl⟩ : ∃ (b : Fin 8) (d e : Fin 64), i = ix3 b d e := ⟨i 0, i 1, i 2, eq_ix3 i⟩
  rw [val_main_v10_apply, val_main_v8_apply, val_main_v9_apply, val_main_cst_1_apply, ← Equiv.sum_comp perm]
  have hl : ∀ n, lidx_main_v8 (ix3 b d e) (perm n) = ix3 b (perm n) d := fun n => funext fun a => Fin.ext (by
    match a with
    | ⟨0, _⟩ => rfl
    | ⟨1, _⟩ => rfl
    | ⟨2, _⟩ => rfl)
  have hr : ∀ n, ridx_main_v8 (ix3 b d e) (perm n) = ix3 b (perm n) e := fun n => funext fun a => Fin.ext (by
    match a with
    | ⟨0, _⟩ => rfl
    | ⟨1, _⟩ => rfl
    | ⟨2, _⟩ => rfl)
  simp only [hl, hr, centered_apply]
  let u : Fin 131072 → ℝ := fun n => xr (ix5 b d ⟨n.val / 4096 % 32, Nat.mod_lt _ (by decide)⟩ ⟨n.val / 64 % 64, Nat.mod_lt _ (by decide)⟩ ⟨n.val % 64, Nat.mod_lt _ (by decide)⟩)
  let v : Fin 131072 → ℝ := fun n => xr (ix5 b e ⟨n.val / 4096 % 32, Nat.mod_lt _ (by decide)⟩ ⟨n.val / 64 % 64, Nat.mod_lt _ (by decide)⟩ ⟨n.val % 64, Nat.mod_lt _ (by decide)⟩)
  have hu : ∀ n : Fin 131072, xrow x b d n.val = (u n : EReal) := fun n => hxr _
  have hv : ∀ n : Fin 131072, xrow x b e n.val = (v n : EReal) := fun n => hxr _
  unfold cov prodSum rowSum
  simp only [hu, hv]
  exact centered_eq_moments u v

end Cert.ReferenceIdeal.RefValue

end
-- ==== Proof.FiniteArg.lean ====
/-
  What the precondition says: every entry of the argument array is a real number.

  The precondition is "all entries satisfy |x| < +∞", an `and` over every index of the comparison of |x| = max(x, −x)
  with the f32 pattern of +∞, which denotes the top extended real.  At −∞ and at +∞ the absolute value is +∞, which is
  not below itself; so an entry that passes is neither, and an extended real that is neither infinity is a real.
-/
import proofs.«103165_j25031069401648_2_alg».proof.Pre_finite_inputs
import proofs.«103165_j25031069401648_2_alg».proof.Proof.Gen.Pre_finite_inputs
import Idealize.ShloMosaic.Lib.ReduceAll
import Idealize.ShloMosaic.Lib.ValueIdx
import Idealize.ShloMosaic.PureOps.Ideal

noncomputable section

namespace Cert.Pre_finite_inputs.Finite

open Cert.Pre_finite_inputs Cert.Pre_finite_inputs.Gen Idealize.ShloMosaic Idealize.ShloMosaic.ValueIdx

/-- The rank-0 shape has one index. -/
instance : Subsingleton S_.Idx := ⟨fun a b => funext fun d => d.elim0⟩

/-- f32's +∞ pattern denotes the top extended real. -/
theorem ofBits_inf : Ideal.ofBits .f32 0x7F800000#32 = ⊤ := by
  simp [Ideal.ofBits, Ideal.ieee]

/-- An extended real whose absolute value is below +∞ is a real number. -/
theorem real_of_abs_lt_top (a : EReal) (h : Ideal.cmp .olt (max a (-a)) ⊤ = 1#1) : ∃ r : ℝ, a = (r : EReal) := by
  induction a using EReal.rec with
  | bot => simp [Ideal.cmp] at h
  | top => simp [Ideal.cmp] at h
  | coe r => exact ⟨r, rfl⟩

/-- Under the precondition every entry of the argument is a real number. -/
theorem entries_real (x : FVec Ideal S8x64x32x64x64 .f32) (h : fn (F := Ideal) x = fun _ => 1#1)
    (i : S8x64x32x64x64.Idx) : ∃ r : ℝ, x i = (r : EReal) := by
  have h0 := congrFun h ix0
  dsimp only [fn] at h0
  have hi := Host.reduce_andi_all _ _ _ _ _ h0 i
  refine real_of_abs_lt_top (x i) ?_
  rw [← ofBits_inf]
  exact hi

end Cert.Pre_finite_inputs.Finite

end
-- ==== Proof.lean ====
/-
  The kernel computes, for each of 8 batches, the 64 × 64 covariance of the batch's 64 rows of N = 131072 entries in one
  pass: it accumulates, over two column tiles, the matrix of pairwise products XᵀX and the column of row sums S, and at
  the end forms (XᵀX − N · μ μᵀ) · N⁻¹ with μ = S · N⁻¹.  The reference subtracts each row's mean first and then contracts
  the centered matrix with itself, dividing by N.  Over the extended reals the two agree whenever every entry is a real
  number — which is what the precondition says — because then the product (x − μ)(y − ν) may be expanded and
  ∑ₙ 1 = N, N · N⁻¹ = 1 used; N = 2¹⁷ and N⁻¹ = 2⁻¹⁷ are both exact float literals.  The two programs enumerate a row's
  N entries in different orders ((c, h, w) against (h, w, c)) and the kernel splits the sum in two halves; a sum over
  all N entries sees neither.

    CovSpec      the specification `cov`, the two-halves lemma, and the algebra over the reals lifted to the extended reals
    BodyCases    what each case of the kernel body leaves in its buffers, as payloads of what it loaded
    BodyValues   those payloads read entry by entry (tile products, tile row sums, the block formed from the totals)
    KernelValue  the totals over a batch's two grid points, the block written back, the result array = `cov`
    RefValue     the reference's result read entry by entry = `cov`, for an argument of real entries
    FiniteArg    the precondition gives real entries

  Rounding to bfloat16 and back is the identity over the extended reals: that is the one difference between the kernel
  read at the word level and the kernel read over the extended reals.
-/
import proofs.«103165_j25031069401648_2_alg».proof.Defs
import proofs.«103165_j25031069401648_2_alg».proof.Proof.Gen.Kernel
import proofs.«103165_j25031069401648_2_alg».proof.Proof.Gen.Kernel.Frame
import proofs.«103165_j25031069401648_2_alg».proof.Proof.Gen.KernelIdeal
import proofs.«103165_j25031069401648_2_alg».proof.Proof.Gen.KernelIdeal.Frame
import proofs.«103165_j25031069401648_2_alg».proof.Proof.Gen.KernelIdeal.Value
import proofs.«103165_j25031069401648_2_alg».proof.Proof.Gen.ReferenceIdeal
import proofs.«103165_j25031069401648_2_alg».proof.Proof.Gen.ReferenceIdeal.Run
import proofs.«103165_j25031069401648_2_alg».proof.Proof.Gen.ReferenceIdeal.Read
import proofs.«103165_j25031069401648_2_alg».proof.Proof.Gen.Pre_finite_inputs
import proofs.«103165_j25031069401648_2_alg».proof.Proof.KernelValue
import proofs.«103165_j25031069401648_2_alg».proof.Proof.RefValue
import proofs.«103165_j25031069401648_2_alg».proof.Proof.FiniteArg
import Idealize.ShloMosaic.Adequacy
import Idealize.ShloMosaic.Init

noncomputable section

namespace Cert.Proof

open Idealize.ShloMosaic Idealize.SL.Sem

/-- The three programs run to the end without a fault and leave the argument as it was. -/
theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

/-- Rounding a 64 × 65536 tile to bfloat16 and widening it back is the identity over the extended reals. -/
theorem preserves : Cert.preserves_Kernel_KernelIdeal := IdealRules.truncf_extf.statement _ .f32 .bf16

/-- Both programs end with the result array at `cov` of the argument: the kernel by its two-point accumulation, the
    reference — whose argument agrees with the kernel's, all of whose entries are real by the precondition — by the
    expansion of the centered products. -/
theorem algebraic : Cert.algebraic_KernelIdeal_ReferenceIdeal := by
  intro m ρ m' ρ' hpre hagree
  refine ⟨fun c => Cert.CovSpec.cov (Cert.KernelIdeal.CovValue.arg m c), Cert.KernelIdeal.CovValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v10_eq, hagree c]
  exact Cert.ReferenceIdeal.RefValue.ref_eq_cov _ (Cert.Pre_finite_inputs.Finite.entries_real _ (hpre c))

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
